-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x256 : Shape := ⟨3, ![4, 65536, 256]⟩
abbrev S256x256 : Shape := ⟨2, ![256, 256]⟩
abbrev S256 : Shape := ⟨1, ![256]⟩
abbrev S_ : Shape := ⟨0, ![]⟩

class Facts : Prop where
  bcast_S_S4x65536x256 : S_.BroadcastsInDim S4x65536x256 (![] : Fin 0 → Fin S4x65536x256.rank)
  reducesTo_S4x65536x256_S_d0_1_2 : S4x65536x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4x65536x256 .f32) (main_arg1 : FVec F S4x65536x256 .f32) (main_arg2 : FVec F S256x256 .f32) (main_arg3 : FVec F S256 .f32) (main_arg4 : FVec F S256x256 .f32) (main_arg5 : FVec F S256 .f32) : IVec S_ 1 :=
  let main_v0 : FVec F S4x65536x256 .f32 := Host.absf main_arg0
  let main_cst : FVec F S_ .f32 := constant S_ .f32 0x7F800000#32
  let main_v1 : FVec F S4x65536x256 .f32 := broadcastInDim S4x65536x256 ![] bcast_S_S4x65536x256 main_cst
  let main_v2 : IVec S4x65536x256 1 := cmpf .olt main_v0 main_v1
  let main_c : IVec S_ 1 := constantI S_ 1 1#1
  let main_v3 : IVec S_ 1 := (fun x v => Host.reduce IntOp.andi x v reducesTo_S4x65536x256_S_d0_1_2 h_S_) main_v2 main_c
  let main_v4 : FVec F S4x65536x256 .f32 := Host.absf main_arg1
  let main_cst_0 : FVec F S_ .f32 := constant S_ .f32 0x7F800000#32
  let main_v5 : FVec F S4x65536x256 .f32 := broadcastInDim S4x65536x256 ![] bcast_S_S4x65536x256 main_cst_0
  let main_v6 : IVec S4x65536x256 1 := cmpf .olt main_v4 main_v5
  let main_c_1 : IVec S_ 1 := constantI S_ 1 1#1
  let main_v7 : IVec S_ 1 := (fun x v => Host.reduce IntOp.andi x v reducesTo_S4x65536x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4x65536x256 : Shape := ⟨3, ![4, 65536, 256]⟩
abbrev S256x256 : Shape := ⟨2, ![256, 256]⟩
abbrev S256 : Shape := ⟨1, ![256]⟩
abbrev S1x256 : Shape := ⟨2, ![1, 256]⟩
abbrev S1x2048x256 : Shape := ⟨3, ![1, 2048, 256]⟩
abbrev S2048x256 : Shape := ⟨2, ![2048, 256]⟩

abbrev nBuf : Space → Nat
  | .hbm => 10
  | .vmem => 10
  | .smem => 0
  | _ => 0

abbrev bufTy : (tb : Table) → Fin (tcTables nBuf tb) → BufTy
  | .hbm, ⟨0, _⟩ => ⟨S4x65536x256, .f32⟩
  | .hbm, ⟨1, _⟩ => ⟨S4x65536x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S1x256, .f32⟩
  | .hbm, ⟨8, _⟩ => ⟨S1x256, .f32⟩
  | .hbm, ⟨9, _⟩ => ⟨S4x65536x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x2048x256, .f32⟩
  | .local _ .vmem, ⟨9, _⟩ => ⟨S1x2048x256, .f32⟩
  | _, _ => ⟨S4x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S256x256_S256x256_1_0 : S256x256.Transposes [1, 0] S256x256
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S256x256_S256x256 : S256x256.ShapeCasts S256x256
  bitsLt_bf16_f32 : FTy.bits .bf16 < FTy.bits .f32
  broadcasts_S1x256_S2048x256 : S1x256.Broadcasts S2048x256
  shapeCasts_S2048x256_S1x2048x256 : S2048x256.ShapeCasts S1x2048x256
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S4x65536x256.size a
  hwx0_0 : ∀ i : grid0.Coords, EltTy.bits .f32 = 32 ∨ (Rect.block (s := S4x65536x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S4x65536x256.size a
  hwx0_1 : ∀ i : grid0.Coords, EltTy.bits .f32 = 32 ∨ (Rect.block (s := S4x65536x256) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x256.size a ≤ S4x65536x256.size a
  hwx0_6 : ∀ i : grid0.Coords, EltTy.bits .f32 = 32 ∨ (Rect.block (s := S4x65536x256) S1x2048x256.size (cc0_transform_6 i) (hinb0_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x65536x256 : Shape := ⟨3, ![4, 65536, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4x65536x256, .f32⟩
  | .hbm, ⟨1, _⟩ => ⟨S4x65536x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S4x65536x256, .f32⟩
  | .hbm, ⟨7, _⟩ => ⟨S1x1x256, .f32⟩
  | .hbm, ⟨8, _⟩ => ⟨S4x65536x256, .f32⟩
  | .hbm, ⟨9, _⟩ => ⟨S4x65536x256, .f32⟩
  | .hbm, ⟨10, _⟩ => ⟨S_, .f32⟩
  | .hbm, ⟨11, _⟩ => ⟨S4x65536x256, .f32⟩
  | .hbm, ⟨12, _⟩ => ⟨S4x65536x256, .f32⟩
  | .hbm, ⟨13, _⟩ => ⟨S4x65536x256, .f32⟩
  | .hbm, ⟨14, _⟩ => ⟨S4x65536x256, .f32⟩
  | .hbm, ⟨15, _⟩ => ⟨S4x65536x256, .f32⟩
  | .hbm, ⟨16, _⟩ => ⟨S256x256, .f32⟩
  | .hbm, ⟨17, _⟩ => ⟨S4x65536x256, .f32⟩
  | .hbm, ⟨18, _⟩ => ⟨S_, .f32⟩
  | .hbm, ⟨19, _⟩ => ⟨S4x65536x256, .f32⟩
  | .hbm, ⟨20, _⟩ => ⟨S4x65536x256, .f32⟩
  | .hbm, ⟨21, _⟩ => ⟨S4x65536x256, .f32⟩
  | .hbm, ⟨22, _⟩ => ⟨S4x65536x256, .f32⟩
  | .hbm, ⟨23, _⟩ => ⟨S1x1x256, .f32⟩
  | .hbm, ⟨24, _⟩ => ⟨S4x65536x256, .f32⟩
  | .hbm, ⟨25, _⟩ => ⟨S4x65536x256, .f32⟩
  | _, _ => ⟨S4x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x65536x256_0_1_2 : S1x1x256.BroadcastsInDim S4x65536x256 (![0, 1, 2] : Fin 3 → Fin S4x65536x256.rank)
  bcast_S_S4x65536x256 : S_.BroadcastsInDim S4x65536x256 (![] : Fin 0 → Fin S4x65536x256.rank)
  dot_S4x65536x256_S256x256_S4x65536x256_2_1_01_0_n_n_wf : DotDims.WF S4x65536x256 S256x256 S4x65536x256 [2] [1] [0, 1] [0] [] []
  dot_S4x65536x256_S256x256_S4x65536x256_2_0_01_1_n_n_wf : DotDims.WF S4x65536x256 S256x256 S4x65536x256 [2] [0] [0, 1] [1] [] []

variable [Facts₀]

def dot_S4x65536x256_S256x256_S4x65536x256_2_1_01_0_n_n : DotDims S4x65536x256 S256x256 S4x65536x256 where
  lhsContracting := [2]
  rhsContracting := [1]
  lhsNonContracting := [0, 1]
  rhsNonContracting := [0]
  lhsBatch := []
  rhsBatch := []
  wf := dot_S4x65536x256_S256x256_S4x65536x256_2_1_01_0_n_n_wf
def dot_S4x65536x256_S256x256_S4x65536x256_2_0_01_1_n_n : DotDims S4x65536x256 S256x256 S4x65536x256 where
  lhsContracting := [2]
  rhsContracting := [0]
  lhsNonContracting := [0, 1]
  rhsNonContracting := [1]
  lhsBatch := []
  rhsBatch := []
  wf := dot_S4x65536x256_S256x256_S4x65536x256_2_0_01_1_n_n_wf

class Facts : Prop extends Facts₀ where

variable [Facts]
-- ==== Proof.Spec.lean ====
/-
  A style-modulated linear layer with demodulation, token by token, on the extended reals.

  For one token with input row `xr` and style row `sr` (256 channels each), a weight matrix `w`, an affine
  matrix `aw` with bias `ab`, and an output bias:

    mod i  = (Σ_s sr s · aw i s) + ab i + 1                      the modulation of input channel i
    out o  = (Σ_i (xr i · mod i) · w i o)                         the modulated product
               · rsqrt ((Σ_i (mod i · mod i) · (w i o · w i o)) + ε)   demodulated by the modulated weights' norm
               + bias o

  Every token is computed from its own two rows and the shared parameters only; the array result is this row
  function at every token (b, n) of a [4, 65536, 256] array.  The two float literals are kept as their words read
  at the exact instance: the same word stands on both sides of every equation below, so neither is ever evaluated.
  No law used here needs finiteness: sums over the 256 channels are sums in a commutative monoid, and every other
  operation is applied to equal arguments.
-/
import Idealize.ShloMosaic.Lib.ValueIdx
import Idealize.ShloMosaic.PureOps.Ideal

noncomputable section

namespace Cert.ModLinear

open Idealize.ShloMosaic Idealize.ShloMosaic.ValueIdx

/-- The word of 1.0, read at the exact instance. -/
abbrev one : EReal := Ideal.ofBits .f32 0x3F800000#32
/-- The word of the stabilizer under the reciprocal square root (the float nearest 1e-8), read at the exact instance. -/
abbrev eps : EReal := Ideal.ofBits .f32 0x322BCC77#32

/-- The modulation of input channel `i` of one token: its style row against row `i` of the affine matrix, plus the
    affine bias, plus one — added in this order. -/
def rowMod (sr : Fin 256 → EReal) (aw : Fin 256 → Fin 256 → EReal) (ab : Fin 256 → EReal) (i : Fin 256) : EReal :=
  (∑ s : Fin 256, sr s * aw i s) + ab i + one

/-- Output channel `o` of one token: the modulated row against column `o` of the weights, times the reciprocal
    square root of the squared modulation against the squared column plus the stabilizer, plus the output bias. -/
def rowOut (xr sr : Fin 256 → EReal) (w : Fin 256 → Fin 256 → EReal) (bias : Fin 256 → EReal)
    (aw : Fin 256 → Fin 256 → EReal) (ab : Fin 256 → EReal) (o : Fin 256) : EReal :=
  (∑ i : Fin 256, (xr i * rowMod sr aw ab i) * w i o)
    * Ideal.rsqrt ((∑ i : Fin 256, (rowMod sr aw ab i * rowMod sr aw ab i) * (w i o * w i o)) + eps)
    + bias o

/-- The token arrays [4, 65536, 256], the two parameter matrices [256, 256], the two bias vectors [256]. -/
abbrev Tok : Shape := ⟨3, ![4, 65536, 256]⟩
abbrev Mat : Shape := ⟨2, ![256, 256]⟩
abbrev Chan : Shape := ⟨1, ![256]⟩

/-- The whole result: at token `(b, n)` and output channel `o`, the row function of that token's rows of `x` and
    `style`. The affine matrix is indexed `(input channel, style channel)`. -/
def result (x style : Tok.Idx → EReal) (w : Mat.Idx → EReal) (bias : Chan.Idx → EReal)
    (aw : Mat.Idx → EReal) (ab : Chan.Idx → EReal) : Tok.Idx → EReal := fun j =>
  rowOut (fun i => x (ix3 (j 0) (j 1) i)) (fun s => style (ix3 (j 0) (j 1) s)) (fun i o => w (ix2 i o))
    (fun o => bias (ix1 o)) (fun i s => aw (ix2 i s)) (fun i => ab (ix1 i)) (j 2)

/-- The result at an index given by its coordinates. -/
theorem result_apply (x style : Tok.Idx → EReal) (w : Mat.Idx → EReal) (bias : Chan.Idx → EReal)
    (aw : Mat.Idx → EReal) (ab : Chan.Idx → EReal) (b : Fin 4) (n : Fin 65536) (o : Fin 256) :
    result x style w bias aw ab (ix3 b n o)
      = rowOut (fun i => x (ix3 b n i)) (fun s => style (ix3 b n s)) (fun i o => w (ix2 i o))
          (fun o => bias (ix1 o)) (fun i s => aw (ix2 i s)) (fun i => ab (ix1 i)) o := rfl

end Cert.ModLinear

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.TileEntry.lean ====
/-
  What the kernel body computes for one tile of 2048 tokens, read at one entry.

  The body loads the tile's rows of `x` and `style` as [1, 2048, 256] blocks, the weights [256, 256], the output bias
  as one row [1, 256], the affine matrix TRANSPOSED (entry `(s, i)`: style channel first) and the affine bias as one
  row. Its three matrix products go into zero accumulators, so each entry is a plain sum over the 256 contracted
  channels; the changes of float format around them are the identity on the extended reals; the one-row biases are
  laid down the 2048 rows; the leading unit axis is dropped on the way in and added back on the way out. Read at
  token `r` of the tile and output channel `o`, the payload is the row function of the specification at that token's
  two rows — with the affine matrix read through the transposition.
-/
import proofs.«142599_j46935402611210_1_alg».proof.Proof.Gen.KernelIdeal.Skeleton
import proofs.«142599_j46935402611210_1_alg».proof.Proof.Spec
import proofs.«142599_j46935402611210_1_alg».proof.Proof.LibDotIdx
import Idealize.ShloMosaic.Lib.ValueIdx
import Idealize.ShloMosaic.Lib.ValueLayout
import Idealize.ShloMosaic.Lib.Pipeline.Value

noncomputable section

namespace Cert.ModLinear.Tile

open Idealize.ShloMosaic Idealize.ShloMosaic.ValueIdx
open Cert.KernelIdeal Cert.KernelIdeal.Gen

/-- The reciprocal square root of a vector, read at an index. -/
theorem rsqrt_apply {s : Shape} {φ : FTy} (a : FVec Ideal s φ) (i : s.Idx) : rsqrt a i = Ideal.rsqrt (a i) := rfl

/-- The body's matrix product [2048, 256] × [256, 256] into the zero accumulator, read at `(r, o)`: the sum over the
    contracted channel of the products of the two entries. -/
theorem product_apply {φ₁ φ₂ : FTy} (A : FVec Ideal S2048x256 φ₁) (B : FVec Ideal S256x256 φ₂) (r : Fin 2048) (o : Fin 256) :
    matmul dot_S2048x256_S256x256_S2048x256_1_0_0_1_n_n none A B (constant S2048x256 .f32 0x00000000#32) (ix2 r o)
      = ∑ c : Fin 256, A (ix2 r c) * B (ix2 c o) :=
  DotIdx.matmul_plain_zero_apply Facts₀.dot_S2048x256_S256x256_S2048x256_1_0_0_1_n_n_wf none A B r o

/-- THE TILE ENTRY: the body's stored value at token `r` of the tile, output channel `o`, is the row function of the
    token's rows of the two loaded blocks, the loaded weights and biases, and the loaded affine matrix read
    transposed. -/
theorem payload_apply (x st : Vec Ideal S1x2048x256 .f32) (w : Vec Ideal S256x256 .f32) (bs : Vec Ideal S1x256 .f32)
    (awt : Vec Ideal S256x256 .f32) (ab : Vec Ideal S1x256 .f32) (u : Fin 1) (r : Fin 2048) (o : Fin 256) :
    k0_pay1 x st w bs awt ab (ix3 u r o)
      = rowOut (fun i => x (ix3 (0 : Fin 1) r i)) (fun s => st (ix3 (0 : Fin 1) r s)) (fun i o => w (ix2 i o))
          (fun o => bs (ix2 (0 : Fin 1) o)) (fun i s => awt (ix2 s i)) (fun i => ab (ix2 (0 : Fin 1) i)) o := by
  unfold k0_pay1 rowOut rowMod
  simp only [shapeCast_ab_1ab_apply, shapeCast_1ab_ab_apply, addf_apply, mulf_apply, rsqrt_apply, product_apply,
    truncf_apply, broadcast_apply, broadcastTo_1b_ab_apply, shapeCast_self, Ideal.ofBits_def,
    Ideal.rsqrt_def]

end Cert.ModLinear.Tile

end
-- ==== Proof.TilesToArray.lean ====
/-
  From the tiles to the whole array: the kernel's result array is the specification's result of its arguments.

  The grid has 4 × 32 points; point `(b, q)` takes the block of tokens `2048·q … 2048·q + 2047` of batch `b` from `x` and
  from `style`, the whole of the weights, of the transposed affine matrix and of the two one-row biases, and writes
  back the block of the same tokens of the result. An index `(0, r, k)` of a token block sits in its array at
  `(b, 2048·q + r, k)`; the whole-array windows sit at their own indices. Before the launch the host transposes the
  affine matrix and reshapes each bias vector to one row, so the loaded transposed matrix at `(s, i)` is the affine
  matrix at `(i, s)` and a loaded bias row at `(0, k)` is the bias at `k`. With these reads the tile entry — the row
  function at the token's rows of the loaded blocks — is the specification's result at `(b, 2048·q + r, o)`. The
  128 blocks tile the array: token `n` of batch `b` lies in the block of point `(b, n / 2048)`; hence the array after
  the run is the result everywhere.
-/
import proofs.«142599_j46935402611210_1_alg».proof.Proof.Gen.KernelIdeal.Value
import proofs.«142599_j46935402611210_1_alg».proof.Proof.TileEntry
import Idealize.ShloMosaic.Lib.ValueLayout

noncomputable section

namespace Cert.ModLinear.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## What the host prepared before the launch -/

/-- The output bias as the region finds it: the bias vector as one row. -/
theorem biasRow_eq (c : Dev nD) : (V m c main_v1 : S1x256.Idx → EReal)
    = shapeCast S1x256 (m ((c : Thread nD τ).loc main_arg3)) Facts₀.shapeCasts_S256_S1x256 := by
  dsimp only [Gen.V, Gen.hostOps0]; after_results; rfl

/-- The affine bias as the region finds it: the vector as one row. -/
theorem affineBiasRow_eq (c : Dev nD) : (V m c main_v2 : S1x256.Idx → EReal)
    = shapeCast S1x256 (m ((c : Thread nD τ).loc main_arg5)) Facts₀.shapeCasts_S256_S1x256 := by
  dsimp only [Gen.V, Gen.hostOps0]; after_results; rfl

/-- The affine matrix as the region finds it: transposed. -/
theorem affineT_eq (c : Dev nD) : (V m c main_v0 : S256x256.Idx → EReal)
    = transpose S256x256 [1, 0] (m ((c : Thread nD τ).loc main_arg4)) Facts₀.transposes_S256x256_S256x256_1_0 := by
  dsimp only [Gen.V, Gen.hostOps0]; after_results

/-! ## One tile entry is the result at the entry's place in the array -/

/-- The tile entry at the block index `y = (u, r, o)`, for blocks whose rows at `r` are the arrays' rows of token
    `(b, n)` and whose parameters are the arrays' (the affine matrix through its transposition, the biases through
    their rows): the result at `i = (b, n, o)`. -/
theorem tile_is_result (X ST : S4x65536x256.Idx → EReal) (W : S256x256.Idx → EReal) (B : S256.Idx → EReal)
    (AW : S256x256.Idx → EReal) (AB : S256.Idx → EReal)
    (x st : Vec Ideal S1x2048x256 .f32) (w : Vec Ideal S256x256 .f32) (bs : Vec Ideal S1x256 .f32)
    (awt : Vec Ideal S256x256 .f32) (ab : Vec Ideal S1x256 .f32)
    (y : S1x2048x256.Idx) (i : S4x65536x256.Idx)
    (u : Fin 1) (r : Fin 2048) (o : Fin 256) (b : Fin 4) (n : Fin 65536)
    (hy : y = ix3 u r o) (hi : i = ix3 b n o)
    (hx : ∀ k : Fin 256, x (ix3 (0 : Fin 1) r k) = X (ix3 b n k))
    (hst : ∀ k : Fin 256, st (ix3 (0 : Fin 1) r k) = ST (ix3 b n k))
    (hw : ∀ a b : Fin 256, w (ix2 a b) = W (ix2 a b))
    (hbs : ∀ o : Fin 256, bs (ix2 (0 : Fin 1) o) = B (ix1 o))
    (hawt : ∀ s k : Fin 256, awt (ix2 s k) = AW (ix2 k s))
    (hab : ∀ k : Fin 256, ab (ix2 (0 : Fin 1) k) = AB (ix1 k)) :
    k0_pay1 x st w bs awt ab y = result X ST W B AW AB i := by
  subst hy hi
  rw [Tile.payload_apply, result_apply]
  simp only [hx, hst, hw, hbs, hawt, hab]

/-! ## Where each window's block sits at a grid point -/

/-- The printed index maps, decided over the 128 points: the two token windows move with the output window on the
    batch and token-block axes and stay at channel block 0; the four parameter windows stay at block 0. -/
theorem index_facts : ∀ t : Fin cfg0.N,
    (win0_0.index t (0 : Fin 3) = win0_6.index t (0 : Fin 3) ∧ win0_0.index t (1 : Fin 3) = win0_6.index t (1 : Fin 3)
      ∧ win0_0.index t (2 : Fin 3) = 0)
    ∧ (win0_1.index t (0 : Fin 3) = win0_6.index t (0 : Fin 3) ∧ win0_1.index t (1 : Fin 3) = win0_6.index t (1 : Fin 3)
      ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (2 : Fin 3) = 0 :=
  (by decide +kernel : ∀ t : Fin grid0.N, _)

/-- Every (batch, token block) is some point's output block. -/
theorem index_onto : ∀ (q0 : Fin 4) (q1 : Fin 32), ∃ t : Fin cfg0.N, win0_6.index t = ![q0.val, q1.val, 0] :=
  (by decide +kernel : ∀ (q0 : Fin 4) (q1 : Fin 32), ∃ t : Fin grid0.N, win0_6.index t = ![q0.val, q1.val, 0])

/-- WHAT POINT `t` WRITES BACK is block `t` of the result of the argument arrays. -/
theorem flushed_eq (c : Dev nD) (t : Fin cfg0.N) :
    (dats m 0 c).flushed 6 t = ((cfg0.win 6).blk t).view.read (Elt Ideal)
      (result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))) := by
  rw [Cert.KernelIdeal.Value.flushed6]
  unfold out0_6
  rw [View.canon_unit_zero zero3]
  simp only [View.ld_unit_zero (S := S1x2048x256) zero3, View.ld_unit_zero (S := S256x256) zero2,
    View.ld_unit_zero (S := S1x256) zero2]
  obtain ⟨⟨a00, a01, a02⟩, ⟨a10, a11, a12⟩, ⟨a20, a21⟩, ⟨a30, a31⟩, ⟨a40, a41⟩, ⟨a50, a51⟩, a62⟩ := index_facts t
  -- a whole-array window's block index is its array index
  have e2 : ∀ y : S256x256.Idx, ((cfg0.win 2).blk t).view.emb y = y := fun y => funext fun a => Fin.ext (by
    match a with
    | ⟨0, _⟩ => show win0_2.index t (0 : Fin 2) * 256 + 1 * (y 0).val = (y 0).val; omega
    | ⟨1, _⟩ => show win0_2.index t (1 : Fin 2) * 256 + 1 * (y 1).val = (y 1).val; omega)
  have e3 : ∀ y : S1x256.Idx, ((cfg0.win 3).blk t).view.emb y = y := fun y => funext fun a => Fin.ext (by
    match a with
    | ⟨0, _⟩ => show win0_3.index t (0 : Fin 2) * 1 + 1 * (y 0).val = (y 0).val; omega
    | ⟨1, _⟩ => show win0_3.index t (1 : Fin 2) * 256 + 1 * (y 1).val = (y 1).val; omega)
  have e4 : ∀ y : S256x256.Idx, ((cfg0.win 4).blk t).view.emb y = y := fun y => funext fun a => Fin.ext (by
    match a with
    | ⟨0, _⟩ => show win0_4.index t (0 : Fin 2) * 256 + 1 * (y 0).val = (y 0).val; omega
    | ⟨1, _⟩ => show win0_4.index t (1 : Fin 2) * 256 + 1 * (y 1).val = (y 1).val; omega)
  have e5 : ∀ y : S1x256.Idx, ((cfg0.win 5).blk t).view.emb y = y := fun y => funext fun a => Fin.ext (by
    match a with
    | ⟨0, _⟩ => show win0_5.index t (0 : Fin 2) * 1 + 1 * (y 0).val = (y 0).val; omega
    | ⟨1, _⟩ => show win0_5.index t (1 : Fin 2) * 256 + 1 * (y 1).val = (y 1).val; omega)
  funext j
  have hj0 : (j 0).val < 1 := (j 0).isLt
  show k0_pay1 (iblk m c 0 t) (iblk m c 1 t) (iblk m c 2 t) (iblk m c 3 t) (iblk m c 4 t) (iblk m c 5 t) j
      = result _ _ _ _ _ _ (((cfg0.win 6).blk t).view.emb j)
  refine tile_is_result _ _ _ _ _ _ _ _ _ _ _ _ j _ (j 0) (j 1) (j 2)
    ((((cfg0.win 6).blk t).view.emb j) 0) ((((cfg0.win 6).blk t).view.emb j) 1) ?_ ?_ ?_ ?_ ?_ ?_ ?_ ?_
  · exact funext fun a => by match a with | ⟨0, _⟩ => rfl | ⟨1, _⟩ => rfl | ⟨2, _⟩ => rfl
  · refine funext fun a => ?_
    match a with
    | ⟨0, _⟩ => rfl
    | ⟨1, _⟩ => rfl
    | ⟨2, _⟩ =>
      apply Fin.ext
      show win0_6.index t (2 : Fin 3) * 256 + 1 * (j 2).val = (j 2).val
      omega
  · intro k
    show V m c main_arg0 (((cfg0.win 0).blk t).view.emb (ix3 (0 : Fin 1) (j 1) k)) = _
    rw [V_main_arg0]
    refine congrArg _ (funext fun a => Fin.ext ?_)
    match a with
    | ⟨0, _⟩ => show win0_0.index t (0 : Fin 3) * 1 + 1 * 0 = win0_6.index t (0 : Fin 3) * 1 + 1 * (j 0).val; omega
    | ⟨1, _⟩ => show win0_0.index t (1 : Fin 3) * 2048 + 1 * (j 1).val = win0_6.index t (1 : Fin 3) * 2048 + 1 * (j 1).val; omega
    | ⟨2, _⟩ => show win0_0.index t (2 : Fin 3) * 256 + 1 * k.val = k.val; omega
  · intro k
    show V m c main_arg1 (((cfg0.win 1).blk t).view.emb (ix3 (0 : Fin 1) (j 1) k)) = _
    rw [V_main_arg1]
    refine congrArg _ (funext fun a => Fin.ext ?_)
    match a with
    | ⟨0, _⟩ => show win0_1.index t (0 : Fin 3) * 1 + 1 * 0 = win0_6.index t (0 : Fin 3) * 1 + 1 * (j 0).val; omega
    | ⟨1, _⟩ => show win0_1.index t (1 : Fin 3) * 2048 + 1 * (j 1).val = win0_6.index t (1 : Fin 3) * 2048 + 1 * (j 1).val; omega
    | ⟨2, _⟩ => show win0_1.index t (2 : Fin 3) * 256 + 1 * k.val = k.val; omega
  · intro a b
    show V m c main_arg2 (((cfg0.win 2).blk t).view.emb (ix2 a b)) = _
    rw [e2, V_main_arg2]
  · intro o
    show V m c main_v1 (((cfg0.win 3).blk t).view.emb (ix2 (0 : Fin 1) o)) = _
    rw [e3, biasRow_eq]
    exact shapeCast_a_1a_apply _ _ _ o
  · intro s k
    show V m c main_v0 (((cfg0.win 4).blk t).view.emb (ix2 s k)) = _
    rw [e4, affineT_eq]
    exact transpose_ix2_apply _ _ s k
  · intro k
    show V m c main_v2 (((cfg0.win 5).blk t).view.emb (ix2 (0 : Fin 1) k)) = _
    rw [e5, affineBiasRow_eq]
    exact shapeCast_a_1a_apply _ _ _ k

/-! ## The blocks tile the array -/

/-- An index of the array is in point `t`'s output block iff each coordinate is in the block's range on its axis. -/
theorem mem_tile (t : Fin cfg0.N) (i : S4x65536x256.Idx) :
    i ∈ ((cfg0.win 6).blk t).view.set ↔ ∀ a : Fin 3, win0_6.index t a * S1x2048x256.size a ≤ (i a).val
      ∧ (i a).val < win0_6.index t a * S1x2048x256.size a + S1x2048x256.size a := by
  show i ∈ ((View.whole main_v3).slice (win0_6.rect t)).set ↔ _
  rw [View.set_slice_whole, Rect.mem_set_unit]
  exact Iff.rfl

/-- Token `n` of batch `b` lies in the output block of the point of batch `b` and token block `n / 2048`. -/
theorem covered (i : S4x65536x256.Idx) :
    ∃ t : Fin cfg0.N, (cfg0.win 6).flush t = true ∧ i ∈ ((cfg0.win 6).blk t).view.set := by
  have hi0 : (i 0).val < 4 := (i 0).isLt
  have hi1 : (i 1).val < 65536 := (i 1).isLt
  have hi2 : (i 2).val < 256 := (i 2).isLt
  obtain ⟨t, ht⟩ := index_onto ⟨(i 0).val, hi0⟩ ⟨(i 1).val / 2048, by omega⟩
  have q0 : win0_6.index t (0 : Fin 3) = (i 0).val := congrFun ht 0
  have q1 : win0_6.index t (1 : Fin 3) = (i 1).val / 2048 := congrFun ht 1
  have q2 : win0_6.index t (2 : Fin 3) = 0 := congrFun ht 2
  refine ⟨t, flush0_6 t, ?_⟩
  rw [mem_tile]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 256 ≤ (i 2).val ∧ (i 2).val < win0_6.index t (2 : Fin 3) * 256 + 256; omega

/-! ## The array after the run, and the run -/

/-- THE ARRAY after the run is the result of the argument arrays. -/
theorem final (c : Dev nD) : (dats m 0 c).arrAt 6 cfg0.N
    = result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) :=
  (dats m 0 c).arrAt_eq_of_cover 6 _ (fun t _ => flushed_eq m c t) covered

/-- Every weakly fair execution of the idealized kernel program terminates with the result array at the
    specification's result of the argument arrays, and the arguments unchanged. -/
theorem run : θ_run defs (onTc (τ := τ) (main (F := Ideal))) ⟨m, fun _ => 0, ρ⟩ fun r => ∀ c : Dev nD,
      r.2.mem ((c : Thread nD τ).loc main_v3)
        = result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.ModLinear.Tiles

end
-- ==== Proof.RefStages.lean ====
/-
  The reference program computes the modulated, demodulated linear layer of the specification.

  Its twenty host operations are read one at a time at an index. The modulation is the affine contraction of the
  style array with the affine matrix (contracting the style channel of both: entry `(i, s)` of the matrix), plus
  the affine bias laid along every token, plus the splat of one; at token `(b, n)` and channel `i` this is the row
  modulation of the token's style row. The two further contractions run over the input channel against column `o`
  of the weights and of their squares; the stabilizer is a splat; the output bias is laid along every token. Read at
  `(b, n, o)` the last stage is the row function of token `(b, n)`'s rows.
-/
import proofs.«142599_j46935402611210_1_alg».proof.Proof.Gen.ReferenceIdeal.Read
import proofs.«142599_j46935402611210_1_alg».proof.Proof.Spec

noncomputable section

namespace Cert.ModLinear.Ref

open Idealize.ShloMosaic Idealize.ShloMosaic.ValueIdx
open Cert.ReferenceIdeal Cert.ReferenceIdeal.Read

variable (x0 x1 : (⟨S4x65536x256, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))

/-- The reference's modulation array at token `(b, n)`, channel `i`: the row modulation of that token's style row. -/
theorem mod_apply (b : Fin 4) (n : Fin 65536) (i : Fin 256) :
    val_main_v5 (F := Ideal) x1 x4 x5 (ix3 b n i)
      = rowMod (fun s => x1 (ix3 b n s)) (fun i s => x4 (ix2 i s)) (fun i => x5 (ix1 i)) i := by
  rw [val_main_v5_apply, val_main_v3_apply, val_main_v0_apply, val_main_v2_apply, val_main_v1_apply,
    val_main_v4_apply, val_main_cst_apply]
  have e1 : ∀ k : Fin 256, lidx_main_v0 (ix3 b n i) k = ix3 b n k := fun k => funext fun a => Fin.ext (by
    match a with | ⟨0, _⟩ => rfl | ⟨1, _⟩ => rfl | ⟨2, _⟩ => rfl)
  have e2 : ∀ k : Fin 256, ridx_main_v0 (ix3 b n i) k = ix2 i k := fun k => funext fun a => Fin.ext (by
    match a with | ⟨0, _⟩ => rfl | ⟨1, _⟩ => rfl)
  have e3 : idx_main_v1 (idx_main_v2 (ix3 b n i)) = ix1 i := funext fun a => Fin.ext (by
    match a with | ⟨0, _⟩ => rfl)
  simp only [e1, e2, e3, Ideal.addf_def, Ideal.ofBits_def]
  rfl

/-- The reference's result array is the specification's result of its six arguments. -/
theorem stage_eq_result :
    val_main_v17 (F := Ideal) x0 x1 x2 x3 x4 x5 = result x0 x1 x2 x3 x4 x5 := by
  funext j
  obtain ⟨b, n, o, rfl⟩ : ∃ (b : Fin 4) (n : Fin 65536) (o : Fin 256), j = ix3 b n o := ⟨j 0, j 1, j 2, eq_ix3 j⟩
  rw [result_apply, val_main_v17_apply, val_main_v14_apply, val_main_v7_apply, val_main_v13_apply, val_main_v12_apply,
    val_main_v10_apply, val_main_v16_apply, val_main_v15_apply, val_main_v11_apply, val_main_cst_0_apply]
  have e7l : ∀ k : Fin 256, lidx_main_v7 (ix3 b n o) k = ix3 b n k := fun k => funext fun a => Fin.ext (by
    match a with | ⟨0, _⟩ => rfl | ⟨1, _⟩ => rfl | ⟨2, _⟩ => rfl)
  have e7r : ∀ k : Fin 256, ridx_main_v7 (ix3 b n o) k = ix2 k o := fun k => funext fun a => Fin.ext (by
    match a with | ⟨0, _⟩ => rfl | ⟨1, _⟩ => rfl)
  have e10l : ∀ k : Fin 256, lidx_main_v10 (ix3 b n o) k = ix3 b n k := fun k => funext fun a => Fin.ext (by
    match a with | ⟨0, _⟩ => rfl | ⟨1, _⟩ => rfl | ⟨2, _⟩ => rfl)
  have e10r : ∀ k : Fin 256, ridx_main_v10 (ix3 b n o) k = ix2 k o := fun k => funext fun a => Fin.ext (by
    match a with | ⟨0, _⟩ => rfl | ⟨1, _⟩ => rfl)
  have e15 : idx_main_v15 (idx_main_v16 (ix3 b n o)) = ix1 o := funext fun a => Fin.ext (by
    match a with | ⟨0, _⟩ => rfl)
  simp only [e7l, e7r, e10l, e10r, e15, val_main_v6_apply, val_main_v8_apply, val_main_v9_apply, mod_apply,
    Ideal.addf_def, Ideal.mulf_def, Ideal.hostUnary_rsqrt_def, Ideal.ofBits_def]
  rfl

end Cert.ModLinear.Ref

end
-- ==== Proof.lean ====
/-
  The kernel and its reference compute one function on the extended reals: a style-modulated linear layer with
  demodulation, token by token (Proof/Spec.lean).

  For each of the 4 × 65536 tokens, with input row `x` and style row `s` of 256 channels,
    mod i = (Σ_s s · affine_w[i, ·]) + affine_b i + 1,
    out o = (Σ_i (x i · mod i) · weight[i, o]) · rsqrt ((Σ_i (mod i · mod i) · (weight[i, o] · weight[i, o])) + ε) + bias o.
  The reference states this over whole arrays with three contractions (Proof/RefStages.lean reads its stages at an
  index). The kernel works on tiles of 2048 tokens: the host transposes the affine matrix and reshapes the two bias
  vectors to rows, each grid point multiplies its tile against the parameters with three matrix products into zero
  accumulators, between changes of float format that are the identity on the extended reals (Proof/TileEntry.lean
  reads the stored tile at an entry), and the 128 tiles fill the result array (Proof/TilesToArray.lean). Both sides
  use the same literal words for 1 and ε, add and multiply in the same order, and differ only in how the sums over the
  256 contracted channels are spelt; so they are equal without any appeal to finiteness of the inputs.

  The three frame claims are the generated frames (the reference's is its generated run with the result dropped); the
  idealization rewrote no operation, so `preserves` is `True`.
-/
import proofs.«142599_j46935402611210_1_alg».proof.Defs
import proofs.«142599_j46935402611210_1_alg».proof.Proof.Gen.Kernel
import proofs.«142599_j46935402611210_1_alg».proof.Proof.Gen.Kernel.Skeleton
import proofs.«142599_j46935402611210_1_alg».proof.Proof.Gen.Kernel.Launch
import proofs.«142599_j46935402611210_1_alg».proof.Proof.Gen.Kernel.Points
import proofs.«142599_j46935402611210_1_alg».proof.Proof.Gen.Kernel.Frame
import proofs.«142599_j46935402611210_1_alg».proof.Proof.Gen.KernelIdeal
import proofs.«142599_j46935402611210_1_alg».proof.Proof.Gen.KernelIdeal.Skeleton
import proofs.«142599_j46935402611210_1_alg».proof.Proof.Gen.KernelIdeal.Launch
import proofs.«142599_j46935402611210_1_alg».proof.Proof.Gen.KernelIdeal.Points
import proofs.«142599_j46935402611210_1_alg».proof.Proof.Gen.KernelIdeal.Frame
import proofs.«142599_j46935402611210_1_alg».proof.Proof.Gen.ReferenceIdeal
import proofs.«142599_j46935402611210_1_alg».proof.Proof.Gen.Pre_finite_inputs
import proofs.«142599_j46935402611210_1_alg».proof.Proof.Gen.KernelIdeal.Value
import proofs.«142599_j46935402611210_1_alg».proof.Proof.Gen.ReferenceIdeal.Run
import proofs.«142599_j46935402611210_1_alg».proof.Proof.Gen.ReferenceIdeal.Read
import proofs.«142599_j46935402611210_1_alg».proof.Proof.TilesToArray
import proofs.«142599_j46935402611210_1_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments, both idealized programs end with the result array at the
    specification's result of those arguments: the kernel tile by tile, the reference stage by stage. -/
theorem algebraic : Cert.algebraic_KernelIdeal_ReferenceIdeal := by
  intro m ρ m' ρ' _ hagree
  refine ⟨_, Cert.ModLinear.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ModLinear.Ref.stage_eq_result,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
